-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S2048x4096 : Shape := ⟨2, ![2048, 4096]⟩
abbrev S4096 : Shape := ⟨1, ![4096]⟩
abbrev S1x4096 : Shape := ⟨2, ![1, 4096]⟩
abbrev S256x2048 : Shape := ⟨2, ![256, 2048]⟩
abbrev S256x1024 : Shape := ⟨2, ![256, 1024]⟩
abbrev S1x1024 : Shape := ⟨2, ![1, 1024]⟩

abbrev nBuf : Space → Nat
  | .hbm => 23
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x1024, .bf16⟩
  | .hbm, ⟨12, _⟩ => ⟨S4096x1024, .bf16⟩
  | .hbm, ⟨13, _⟩ => ⟨S4096x2048, .bf16⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S2048x1024, .bf16⟩
  | .hbm, ⟨18, _⟩ => ⟨S2048x4096, .bf16⟩
  | .hbm, ⟨19, _⟩ => ⟨S4096, .f32⟩
  | .hbm, ⟨20, _⟩ => ⟨S1x4096, .f32⟩
  | .hbm, ⟨21, _⟩ => ⟨S4096x1024, .f32⟩
  | .hbm, ⟨22, _⟩ => ⟨S4096x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .f32⟩
  | .local _ .vmem, ⟨3, _⟩ => ⟨S256x1024, .f32⟩
  | .local _ .vmem, ⟨4, _⟩ => ⟨S2048x4096, .bf16⟩
  | .local _ .vmem, ⟨5, _⟩ => ⟨S1x4096, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  concatenates_S4096x1024_S4096x1024_S4096x2048_d1 : Shape.Concatenates [S4096x1024, S4096x1024] S4096x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  shapeCasts_S4096_S1x4096 : S4096.ShapeCasts S1x4096
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x4096_S2048x1024_0_0 : ∀ a, (![0, 0] : Fin 2 → Nat) a + S2048x1024.size a ≤ S2048x4096.size a
  h_S2048x1024 : 0 < S2048x1024.numel
  shapeCasts_S2048x1024_S2048x1024 : S2048x1024.ShapeCasts S2048x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S2048x4096_S2048x1024_0_1024 : ∀ a, (![0, 1024] : Fin 2 → Nat) a + S2048x1024.size a ≤ S2048x4096.size a
  inb_S1x4096_S1x1024_0_1024 : ∀ a, (![0, 1024] : Fin 2 → Nat) a + S1x1024.size a ≤ S1x4096.size a
  inb_S2048x4096_S2048x1024_0_2048 : ∀ a, (![0, 2048] : Fin 2 → Nat) a + S2048x1024.size a ≤ S2048x4096.size a
  inb_S1x4096_S1x1024_0_2048 : ∀ a, (![0, 2048] : Fin 2 → Nat) a + S1x1024.size a ≤ S1x4096.size a
  inb_S2048x4096_S2048x1024_0_3072 : ∀ a, (![0, 3072] : Fin 2 → Nat) a + S2048x1024.size a ≤ S2048x4096.size a
  inb_S1x4096_S1x1024_0_3072 : ∀ a, (![0, 3072] : Fin 2 → Nat) a + S1x1024.size a ≤ S1x4096.size a
  inb_S256x1024_S256x1024_0_0 : ∀ a, (![0, 0] : Fin 2 → Nat) a + S256x1024.size a ≤ S256x1024.size a
  h_S256x1024 : 0 < S256x1024.numel
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x4096.size a ≤ S2048x4096.size a
  hwx0_2 : ∀ i : grid0.Coords, EltTy.bits .bf16 = 32 ∨ (Rect.block (s := S2048x4096) S2048x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v2) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x2048, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x2048_S2048x1024_S4096x1024_1_0_0_1_n_n_wf : DotDims.WF S4096x2048 S2048x1024 S4096x1024 [1] [0] [0] [1] [] []

variable [Facts₀]

def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.FrameKernel.lean ====
/-
  The frame of `Kernel`: the program terminates, faults nowhere and leaves its eleven argument arrays as launched.

  @main is ten host operations — the bf16 roundings of x, h and the four weight matrices, the row-wise
  concatenation [x | h] (4096×2048), the column-wise concatenation [W_f | W_i | W_c | W_o] (2048×4096), the
  concatenation of the four biases (4096) and its recast as one row (1×4096) — followed by one pipelined kernel
  over 16 grid points. At point t the kernel is handed rows 256·t … 256·t+255 of [x | h] and of c_prev, the whole
  weight matrix and the whole bias row (both fetched once, at t = 0, and unmoved since), and it overwrites the
  whole 256×1024 block of each of its two outputs. So what each output buffer holds after the body is ONE store's
  payload, a function of the four input blocks (`out_h`, `out_c`); the input buffers are only read. No host
  operation writes an argument array, and the kernel's windows over arguments (c_prev) are inputs: every
  argument ends as it began.
-/
import proofs.«103507_j35450660061928_2_alg».proof.Proof.Gen.Kernel.Launch
import proofs.«103507_j35450660061928_2_alg».proof.Proof.Gen.Kernel.Skeleton
import proofs.«103507_j35450660061928_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the kernel -/

/-- The buffers of core `c` when the kernel starts: the launch memory after the ten host operations. -/
abbrev V (c : Dev nD) (b : Ref sig .tc) : Buf (Elt F) ((c : Thread nD τ).loc b) :=
  StableHlo.after (List.flatten [hostOps0]) (fun b => m (c, b)) b

/-- No host operation allocates anything. -/
theorem hostOps0_fresh : (hostOps0 : List (HloOp τ sig (Elt F))).Forall fun op => op.fresh = ∅ := by
  simp only [List.Forall]; repeat' constructor

/-- @main is the host operations, then the kernel's region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the kernel writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 6: the kernel finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 7: the kernel finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 8: the kernel finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 9: the kernel finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 10: the kernel finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point — fetched there, or fetched earlier
    with the block index unmoved since (the weight matrix and the bias row, fetched at the first point only) —
    for any proof data over the arrays `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the pipeline -/

/-- A run whose final state has every array of the pipeline at what the proof data compute and every other
    unscoped buffer as the kernel found it leaves the arguments unchanged: c_prev is an input window's array,
    the other ten are staged by no window, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- The whole [x | h] block; the whole c_prev block (also the whole of either output block); gate g's 2048×1024
    columns of the weight matrix and its 1×1024 stretch of the bias row, g = 0 … 3. -/
abbrev rComb : Rect S256x2048 := Rect.unit (s := S256x2048) ![0, 0] S256x2048.size inb_S256x2048_S256x2048_0_0
abbrev rTile : Rect S256x1024 := Rect.unit (s := S256x1024) ![0, 0] S256x1024.size inb_S256x1024_S256x1024_0_0
abbrev rW0 : Rect S2048x4096 := Rect.unit (s := S2048x4096) ![0, 0] S2048x1024.size inb_S2048x4096_S2048x1024_0_0
abbrev rW1 : Rect S2048x4096 := Rect.unit (s := S2048x4096) ![0, 1024] S2048x1024.size inb_S2048x4096_S2048x1024_0_1024
abbrev rW2 : Rect S2048x4096 := Rect.unit (s := S2048x4096) ![0, 2048] S2048x1024.size inb_S2048x4096_S2048x1024_0_2048
abbrev rW3 : Rect S2048x4096 := Rect.unit (s := S2048x4096) ![0, 3072] S2048x1024.size inb_S2048x4096_S2048x1024_0_3072
abbrev rB0 : Rect S1x4096 := Rect.unit (s := S1x4096) ![0, 0] S1x1024.size inb_S1x4096_S1x1024_0_0
abbrev rB1 : Rect S1x4096 := Rect.unit (s := S1x4096) ![0, 1024] S1x1024.size inb_S1x4096_S1x1024_0_1024
abbrev rB2 : Rect S1x4096 := Rect.unit (s := S1x4096) ![0, 2048] S1x1024.size inb_S1x4096_S1x1024_0_2048
abbrev rB3 : Rect S1x4096 := Rect.unit (s := S1x4096) ![0, 3072] S1x1024.size inb_S1x4096_S1x1024_0_3072

/-! ## What the body leaves in each output buffer -/

/-- The new cell state's block, c = f · c_prev + i · c̃, from the four input blocks: the forget, input and
    candidate gates each from [x | h], their columns of the weights and their stretch of the bias. -/
def cellPay (x0 : Vec F S256x2048 .bf16) (x1 : Vec F S256x1024 .f32) (x2 : Vec F S2048x4096 .bf16) (x3 : Vec F S1x4096 .f32) : Vec F S256x1024 .f32 :=
  k0_pay1 (k0_pay4 (View.ld x0 rComb) (View.ld x2 rW0) (View.ld x3 rB0)) (k0_pay5 (View.ld x0 rComb) (View.ld x2 rW1) (View.ld x3 rB1))
    (k0_pay6 (View.ld x0 rComb) (View.ld x2 rW2) (View.ld x3 rB2)) (View.ld x1 rTile)

/-- The new hidden state's block, h = o · tanh c. -/
def hiddenPay (x0 : Vec F S256x2048 .bf16) (x1 : Vec F S256x1024 .f32) (x2 : Vec F S2048x4096 .bf16) (x3 : Vec F S1x4096 .f32) : Vec F S256x1024 .f32 :=
  k0_pay2 (k0_pay4 (View.ld x0 rComb) (View.ld x2 rW0) (View.ld x3 rB0)) (k0_pay5 (View.ld x0 rComb) (View.ld x2 rW1) (View.ld x3 rB1))
    (k0_pay6 (View.ld x0 rComb) (View.ld x2 rW2) (View.ld x3 rB2)) (k0_pay7 (View.ld x0 rComb) (View.ld x2 rW3) (View.ld x3 rB3)) (View.ld x1 rTile)

/-- The hidden-state output's buffer after the body: its one store, of the whole block. -/
def out_h (x0 : Vec F S256x2048 .bf16) (x1 : Vec F S256x1024 .f32) (x2 : Vec F S2048x4096 .bf16) (x3 : Vec F S1x4096 .f32) : Vec F S256x1024 .f32 :=
  View.canon [⟨rTile, hiddenPay x0 x1 x2 x3⟩]

/-- The cell-state output's buffer after the body: its one store, of the whole block. -/
def out_c (x0 : Vec F S256x2048 .bf16) (x1 : Vec F S256x1024 .f32) (x2 : Vec F S2048x4096 .bf16) (x3 : Vec F S1x4096 .f32) : Vec F S256x1024 .f32 :=
  View.canon [⟨rTile, cellPay x0 x1 x2 x3⟩]

/-- One store of the whole block covers the block. -/
theorem cover_tile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 4000000 in
/-- The body on whole staging buffers — the four inputs' at contents `x0 … x3`, the two outputs' at anything — runs
    to the end holding the inputs' as they were and the outputs' at `out_h`, `out_c` of the inputs'. -/
theorem sound_kernel (c : Dev nD) (E : Set ℕ) (i : grid0.Coords) (arg1 : Memref sig .tc .vmem S256x2048 .bf16) (harg1 : arg1.IsWhole) (arg2 : Memref sig .tc .vmem S256x1024 .f32) (harg2 : arg2.IsWhole) (arg3 : Memref sig .tc .vmem S2048x4096 .bf16) (harg3 : arg3.IsWhole) (arg4 : Memref sig .tc .vmem S1x4096 .f32) (harg4 : arg4.IsWhole) (arg5 : Memref sig .tc .vmem S256x1024 .f32) (harg5 : arg5.IsWhole) (arg6 : Memref sig .tc .vmem S256x1024 .f32) (harg6 : arg6.IsWhole)
    (x0 : Vec F S256x2048 .bf16) (x1 : Vec F S256x1024 .f32) (x2 : Vec F S2048x4096 .bf16) (x3 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out_h x0 x1 x2 x3) ∗ owns (c : Thread nD τ) arg6 fullShare (out_c x0 x1 x2 x3)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover_tile _)
  iexists _; isplitr
  swap; · iexact H5
  ipureintro
  try dsimp only
  exact View.read_writes_eq_canon _ _ _ (cover_tile _)

/-! ## The pipeline's proof data -/

/-- On core `c`: the arrays as the kernel finds them; after the body at point `t` each input's buffer at its
    block and each output's at `out_h`, `out_c` of the four input blocks; nothing else of the core is touched,
    nothing is owed, every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out_h (iblk m c 0 t) (iblk m c 1 t) (iblk m c 2 t) (iblk m c 3 t)
    | ⟨5, _⟩ => out_c (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out_h (iblk m c 0 t) (iblk m c 1 t) (iblk m c 2 t) (iblk m c 3 t) := by dsimp only [dats]
theorem after0_5 (c : Dev nD) (t : Fin cfg0.N) : (dats m 0 c).after 5 t = out_c (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the rest of the
    core passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data compute (an output: its blocks as written back) and every
    other unscoped buffer as the kernel found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its eleven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Frame

end
-- ==== Proof.FrameKernelIdeal.lean ====
/-
  The frame of `KernelIdeal`: the program terminates, faults nowhere and leaves its eleven argument arrays as launched.

  @main is ten host operations — the bf16 roundings of x, h and the four weight matrices, the row-wise
  concatenation [x | h] (4096×2048), the column-wise concatenation [W_f | W_i | W_c | W_o] (2048×4096), the
  concatenation of the four biases (4096) and its recast as one row (1×4096) — followed by one pipelined kernel
  over 16 grid points. At point t the kernel is handed rows 256·t … 256·t+255 of [x | h] and of c_prev, the whole
  weight matrix and the whole bias row (both fetched once, at t = 0, and unmoved since), and it overwrites the
  whole 256×1024 block of each of its two outputs. So what each output buffer holds after the body is ONE store's
  payload, a function of the four input blocks (`out_h`, `out_c`); the input buffers are only read. No host
  operation writes an argument array, and the kernel's windows over arguments (c_prev) are inputs: every
  argument ends as it began.
-/
import proofs.«103507_j35450660061928_2_alg».proof.Proof.Gen.KernelIdeal.Launch
import proofs.«103507_j35450660061928_2_alg».proof.Proof.Gen.KernelIdeal.Skeleton
import proofs.«103507_j35450660061928_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the kernel -/

/-- The buffers of core `c` when the kernel starts: the launch memory after the ten host operations. -/
abbrev V (c : Dev nD) (b : Ref sig .tc) : Buf (Elt F) ((c : Thread nD τ).loc b) :=
  StableHlo.after (List.flatten [hostOps0]) (fun b => m (c, b)) b

/-- No host operation allocates anything. -/
theorem hostOps0_fresh : (hostOps0 : List (HloOp τ sig (Elt F))).Forall fun op => op.fresh = ∅ := by
  simp only [List.Forall]; repeat' constructor

/-- @main is the host operations, then the kernel's region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the kernel writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 6: the kernel finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 7: the kernel finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 8: the kernel finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 9: the kernel finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- No host operation before the kernel writes argument 10: the kernel finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point — fetched there, or fetched earlier
    with the block index unmoved since (the weight matrix and the bias row, fetched at the first point only) —
    for any proof data over the arrays `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the pipeline -/

/-- A run whose final state has every array of the pipeline at what the proof data compute and every other
    unscoped buffer as the kernel found it leaves the arguments unchanged: c_prev is an input window's array,
    the other ten are staged by no window, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- The whole [x | h] block; the whole c_prev block (also the whole of either output block); gate g's 2048×1024
    columns of the weight matrix and its 1×1024 stretch of the bias row, g = 0 … 3. -/
abbrev rComb : Rect S256x2048 := Rect.unit (s := S256x2048) ![0, 0] S256x2048.size inb_S256x2048_S256x2048_0_0
abbrev rTile : Rect S256x1024 := Rect.unit (s := S256x1024) ![0, 0] S256x1024.size inb_S256x1024_S256x1024_0_0
abbrev rW0 : Rect S2048x4096 := Rect.unit (s := S2048x4096) ![0, 0] S2048x1024.size inb_S2048x4096_S2048x1024_0_0
abbrev rW1 : Rect S2048x4096 := Rect.unit (s := S2048x4096) ![0, 1024] S2048x1024.size inb_S2048x4096_S2048x1024_0_1024
abbrev rW2 : Rect S2048x4096 := Rect.unit (s := S2048x4096) ![0, 2048] S2048x1024.size inb_S2048x4096_S2048x1024_0_2048
abbrev rW3 : Rect S2048x4096 := Rect.unit (s := S2048x4096) ![0, 3072] S2048x1024.size inb_S2048x4096_S2048x1024_0_3072
abbrev rB0 : Rect S1x4096 := Rect.unit (s := S1x4096) ![0, 0] S1x1024.size inb_S1x4096_S1x1024_0_0
abbrev rB1 : Rect S1x4096 := Rect.unit (s := S1x4096) ![0, 1024] S1x1024.size inb_S1x4096_S1x1024_0_1024
abbrev rB2 : Rect S1x4096 := Rect.unit (s := S1x4096) ![0, 2048] S1x1024.size inb_S1x4096_S1x1024_0_2048
abbrev rB3 : Rect S1x4096 := Rect.unit (s := S1x4096) ![0, 3072] S1x1024.size inb_S1x4096_S1x1024_0_3072

/-! ## What the body leaves in each output buffer -/

/-- The new cell state's block, c = f · c_prev + i · c̃, from the four input blocks: the forget, input and
    candidate gates each from [x | h], their columns of the weights and their stretch of the bias. -/
def cellPay (x0 : Vec F S256x2048 .bf16) (x1 : Vec F S256x1024 .f32) (x2 : Vec F S2048x4096 .bf16) (x3 : Vec F S1x4096 .f32) : Vec F S256x1024 .f32 :=
  k0_pay1 (k0_pay4 (View.ld x0 rComb) (View.ld x2 rW0) (View.ld x3 rB0)) (k0_pay5 (View.ld x0 rComb) (View.ld x2 rW1) (View.ld x3 rB1))
    (k0_pay6 (View.ld x0 rComb) (View.ld x2 rW2) (View.ld x3 rB2)) (View.ld x1 rTile)

/-- The new hidden state's block, h = o · tanh c. -/
def hiddenPay (x0 : Vec F S256x2048 .bf16) (x1 : Vec F S256x1024 .f32) (x2 : Vec F S2048x4096 .bf16) (x3 : Vec F S1x4096 .f32) : Vec F S256x1024 .f32 :=
  k0_pay2 (k0_pay4 (View.ld x0 rComb) (View.ld x2 rW0) (View.ld x3 rB0)) (k0_pay5 (View.ld x0 rComb) (View.ld x2 rW1) (View.ld x3 rB1))
    (k0_pay6 (View.ld x0 rComb) (View.ld x2 rW2) (View.ld x3 rB2)) (k0_pay7 (View.ld x0 rComb) (View.ld x2 rW3) (View.ld x3 rB3)) (View.ld x1 rTile)

/-- The hidden-state output's buffer after the body: its one store, of the whole block. -/
def out_h (x0 : Vec F S256x2048 .bf16) (x1 : Vec F S256x1024 .f32) (x2 : Vec F S2048x4096 .bf16) (x3 : Vec F S1x4096 .f32) : Vec F S256x1024 .f32 :=
  View.canon [⟨rTile, hiddenPay x0 x1 x2 x3⟩]

/-- The cell-state output's buffer after the body: its one store, of the whole block. -/
def out_c (x0 : Vec F S256x2048 .bf16) (x1 : Vec F S256x1024 .f32) (x2 : Vec F S2048x4096 .bf16) (x3 : Vec F S1x4096 .f32) : Vec F S256x1024 .f32 :=
  View.canon [⟨rTile, cellPay x0 x1 x2 x3⟩]

/-- One store of the whole block covers the block. -/
theorem cover_tile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 4000000 in
/-- The body on whole staging buffers — the four inputs' at contents `x0 … x3`, the two outputs' at anything — runs
    to the end holding the inputs' as they were and the outputs' at `out_h`, `out_c` of the inputs'. -/
theorem sound_kernel (c : Dev nD) (E : Set ℕ) (i : grid0.Coords) (arg1 : Memref sig .tc .vmem S256x2048 .bf16) (harg1 : arg1.IsWhole) (arg2 : Memref sig .tc .vmem S256x1024 .f32) (harg2 : arg2.IsWhole) (arg3 : Memref sig .tc .vmem S2048x4096 .bf16) (harg3 : arg3.IsWhole) (arg4 : Memref sig .tc .vmem S1x4096 .f32) (harg4 : arg4.IsWhole) (arg5 : Memref sig .tc .vmem S256x1024 .f32) (harg5 : arg5.IsWhole) (arg6 : Memref sig .tc .vmem S256x1024 .f32) (harg6 : arg6.IsWhole)
    (x0 : Vec F S256x2048 .bf16) (x1 : Vec F S256x1024 .f32) (x2 : Vec F S2048x4096 .bf16) (x3 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out_h x0 x1 x2 x3) ∗ owns (c : Thread nD τ) arg6 fullShare (out_c x0 x1 x2 x3)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover_tile _)
  iexists _; isplitr
  swap; · iexact H5
  ipureintro
  try dsimp only
  exact View.read_writes_eq_canon _ _ _ (cover_tile _)

/-! ## The pipeline's proof data -/

/-- On core `c`: the arrays as the kernel finds them; after the body at point `t` each input's buffer at its
    block and each output's at `out_h`, `out_c` of the four input blocks; nothing else of the core is touched,
    nothing is owed, every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out_h (iblk m c 0 t) (iblk m c 1 t) (iblk m c 2 t) (iblk m c 3 t)
    | ⟨5, _⟩ => out_c (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out_h (iblk m c 0 t) (iblk m c 1 t) (iblk m c 2 t) (iblk m c 3 t) := by dsimp only [dats]
theorem after0_5 (c : Dev nD) (t : Fin cfg0.N) : (dats m 0 c).after 5 t = out_c (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the rest of the
    core passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data compute (an output: its blocks as written back) and every
    other unscoped buffer as the kernel found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its eleven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Frame

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.Spec.lean ====
/-
  One step of an LSTM cell, entry by entry, on the extended reals.

  With u = [x | h] (4096×2048), a gate's pre-activation at (p, q) is  z_g(p, q) = ∑ k < 2048, u(p, k) · W_g(k, q) + b_g(q).
  The forget, input and output gates are σ(z_f), σ(z_i), σ(z_o) with σ(z) = 1 / (1 + e^(−z)); the candidate is
  tanh(z_c). The new cell state is  c(p, q) = σ(z_f) · c_prev(p, q) + σ(z_i) · tanh(z_c)  and the new hidden state
  h(p, q) = σ(z_o) · tanh(c(p, q)).  Nothing here needs the entries to be finite: both programs form these sums and
  products in this very order.
-/
import Idealize.ShloMosaic.PureOps.Ideal.Laws
import Idealize.ShloMosaic.Lib.ValueIdx

noncomputable section

open scoped BigOperators

namespace Cert.Lstm

open Idealize.ShloMosaic Idealize.ShloMosaic.ValueIdx

/-- The arrays' types: [x | h], a gate's weights, a gate's bias, a state. -/
abbrev Comb := (⟨2, ![4096, 2048]⟩ : Shape).Idx → EReal
abbrev Wt := (⟨2, ![2048, 1024]⟩ : Shape).Idx → EReal
abbrev Bias := (⟨1, ![1024]⟩ : Shape).Idx → EReal
abbrev State := (⟨2, ![4096, 1024]⟩ : Shape).Idx → EReal

/-- The f32 pattern of 1.0 is the real number 1. -/
theorem ofBits_one : Ideal.ofBits .f32 0x3F800000#32 = 1 := by
  simp [Ideal.ofBits, Ideal.ieee, -EReal.coe_mul]; norm_num

/-- σ spelt with the literal 1.0, as a program that expands it into negate, exponential, add and divide does, is the
    logistic function. -/
theorem logistic_spelt (z : EReal) :
    Ideal.div (Ideal.ofBits .f32 0x3F800000#32) (Ideal.ofBits .f32 0x3F800000#32 + Ideal.exp (-z)) = Ideal.logistic z := by
  rw [ofBits_one]; rfl

/-- A gate's pre-activation at (p, q): row p of [x | h] against column q of the gate's weights, plus the bias. -/
def pre (u : Comb) (W : Wt) (b : Bias) (p : Fin 4096) (q : Fin 1024) : EReal :=
  (∑ k : Fin 2048, u (ix2 p k) * W (ix2 k q)) + b (ix1 q)

/-- The new cell state at (p, q). -/
def cell (u : Comb) (Wf : Wt) (bf : Bias) (Wi : Wt) (bi : Bias) (Wc : Wt) (bc : Bias) (cprev : State)
    (p : Fin 4096) (q : Fin 1024) : EReal :=
  Ideal.logistic (pre u Wf bf p q) * cprev (ix2 p q) + Ideal.logistic (pre u Wi bi p q) * Ideal.tanh (pre u Wc bc p q)

/-- The new hidden state at (p, q). -/
def hidden (u : Comb) (Wf : Wt) (bf : Bias) (Wi : Wt) (bi : Bias) (Wc : Wt) (bc : Bias) (Wo : Wt) (bo : Bias) (cprev : State)
    (p : Fin 4096) (q : Fin 1024) : EReal :=
  Ideal.logistic (pre u Wo bo p q) * Ideal.tanh (cell u Wf bf Wi bi Wc bc cprev p q)

/-- The new cell state as an array. -/
def cellArr (u : Comb) (Wf : Wt) (bf : Bias) (Wi : Wt) (bi : Bias) (Wc : Wt) (bc : Bias) (cprev : State) : State :=
  fun j => cell u Wf bf Wi bi Wc bc cprev (j 0) (j 1)

/-- The new hidden state as an array. -/
def hiddenArr (u : Comb) (Wf : Wt) (bf : Bias) (Wi : Wt) (bi : Bias) (Wc : Wt) (bc : Bias) (Wo : Wt) (bo : Bias) (cprev : State) : State :=
  fun j => hidden u Wf bf Wi bi Wc bc Wo bo cprev (j 0) (j 1)

end Cert.Lstm

end
-- ==== Proof.KernelPay.lean ====
/-
  The body's arithmetic, entry by entry, on the extended reals.

  On a block of 256 rows the body forms, for each gate, the product of the block's rows of [x | h] with the gate's
  2048×1024 columns of the weight matrix — accumulated from zero, so at (p, q) the plain sum over k of
  u(p, k) · W_g(k, q) — adds the gate's stretch of the bias row to every row, and applies the logistic function
  (forget, input, output) or tanh (candidate). The two stores are then pointwise products and sums of these: the
  cell state σ(z_f) · c_prev + σ(z_i) · tanh(z_c) and the hidden state σ(z_o) · tanh(cell). A change of float format
  is the identity here, so the bf16 operands are the arrays themselves.
-/
import proofs.«103507_j35450660061928_2_alg».proof.Proof.FrameKernelIdeal
import proofs.«103507_j35450660061928_2_alg».proof.Proof.LibMatOps
import proofs.«103507_j35450660061928_2_alg».proof.Proof.Spec
import Idealize.ShloMosaic.Lib.ValueLayout
import Idealize.ShloMosaic.Lib.Pipeline.Value

noncomputable section

open scoped BigOperators

namespace Cert.KernelIdeal.Pay

open Cert.KernelIdeal Cert.KernelIdeal.Gen Cert.KernelIdeal.Frame
open Idealize.ShloMosaic Idealize.ShloMosaic.ValueIdx

/-- A gate's pre-activation on a block: the block's 256 rows of [x | h] against the gate's 2048×1024 weights,
    accumulated from zero, plus the gate's bias row spread down the rows. -/
theorem preact_apply (x0 : FVec Ideal S256x2048 .bf16) (w : FVec Ideal S2048x1024 .bf16) (b : FVec Ideal S1x1024 .f32)
    (p : Fin 256) (q : Fin 1024) :
    addf (matmul dot_S256x2048_S2048x1024_S256x1024_1_0_0_1_n_n none (shapeCast S256x2048 x0 shapeCasts_S256x2048_S256x2048)
        (shapeCast S2048x1024 w shapeCasts_S2048x1024_S2048x1024) (constant S256x1024 .f32 0x00000000#32))
      (broadcastTo S256x1024 (shapeCast S1x1024 b shapeCasts_S1x1024_S1x1024) broadcasts_S1x1024_S256x1024) (ix2 p q)
      = (∑ k : Fin 2048, x0 (ix2 p k) * w (ix2 k q)) + b (ix2 (0 : Fin 1) q) := by
  simp only [shapeCast_self]
  show FloatOps.matmul _ none x0 w _ (ix2 p q) + broadcastTo S256x1024 b broadcasts_S1x1024_S256x1024 (ix2 p q) = _
  rw [broadcastTo_1b_ab_apply]
  refine congrArg (· + b (ix2 (0 : Fin 1) q)) ?_
  exact Cert.MatOps.matmul_plain_apply (M := 256) (K := 2048) (C := 1024) dot_S256x2048_S2048x1024_S256x1024_1_0_0_1_n_n_wf none x0 w p q

/-- The forget gate on a block, entry by entry. -/
theorem gate_f_apply (x0 : FVec Ideal S256x2048 .bf16) (w : FVec Ideal S2048x1024 .bf16) (b : FVec Ideal S1x1024 .f32)
    (p : Fin 256) (q : Fin 1024) :
    k0_pay4 (F := Ideal) x0 w b (ix2 p q) = Ideal.logistic ((∑ k : Fin 2048, x0 (ix2 p k) * w (ix2 k q)) + b (ix2 (0 : Fin 1) q)) := by
  unfold k0_pay4 k0_pay3
  exact congrArg Ideal.logistic (preact_apply x0 w b p q)

/-- The input gate. -/
theorem gate_i_apply (x0 : FVec Ideal S256x2048 .bf16) (w : FVec Ideal S2048x1024 .bf16) (b : FVec Ideal S1x1024 .f32)
    (p : Fin 256) (q : Fin 1024) :
    k0_pay5 (F := Ideal) x0 w b (ix2 p q) = Ideal.logistic ((∑ k : Fin 2048, x0 (ix2 p k) * w (ix2 k q)) + b (ix2 (0 : Fin 1) q)) := by
  unfold k0_pay5 k0_pay3
  exact congrArg Ideal.logistic (preact_apply x0 w b p q)

/-- The candidate. -/
theorem gate_c_apply (x0 : FVec Ideal S256x2048 .bf16) (w : FVec Ideal S2048x1024 .bf16) (b : FVec Ideal S1x1024 .f32)
    (p : Fin 256) (q : Fin 1024) :
    k0_pay6 (F := Ideal) x0 w b (ix2 p q) = Ideal.tanh ((∑ k : Fin 2048, x0 (ix2 p k) * w (ix2 k q)) + b (ix2 (0 : Fin 1) q)) := by
  unfold k0_pay6 k0_pay3
  exact congrArg Ideal.tanh (preact_apply x0 w b p q)

/-- The output gate. -/
theorem gate_o_apply (x0 : FVec Ideal S256x2048 .bf16) (w : FVec Ideal S2048x1024 .bf16) (b : FVec Ideal S1x1024 .f32)
    (p : Fin 256) (q : Fin 1024) :
    k0_pay7 (F := Ideal) x0 w b (ix2 p q) = Ideal.logistic ((∑ k : Fin 2048, x0 (ix2 p k) * w (ix2 k q)) + b (ix2 (0 : Fin 1) q)) := by
  unfold k0_pay7 k0_pay3
  exact congrArg Ideal.logistic (preact_apply x0 w b p q)

section point
variable (u : Cert.Lstm.Comb) (Wf : Cert.Lstm.Wt) (bf : Cert.Lstm.Bias) (Wi : Cert.Lstm.Wt) (bi : Cert.Lstm.Bias)
  (Wc : Cert.Lstm.Wt) (bc : Cert.Lstm.Bias) (Wo : Cert.Lstm.Wt) (bo : Cert.Lstm.Bias) (cprev : Cert.Lstm.State)
  (row : Fin 256 → Fin 4096)
  (x0 : Vec Ideal S256x2048 .bf16) (x1 : Vec Ideal S256x1024 .f32) (x2 : Vec Ideal S2048x4096 .bf16) (x3 : Vec Ideal S1x4096 .f32)
  (h0 : ∀ (p : Fin 256) (k : Fin 2048), View.ld x0 rComb (ix2 p k) = u (ix2 (row p) k))
  (h1 : ∀ (p : Fin 256) (q : Fin 1024), View.ld x1 rTile (ix2 p q) = cprev (ix2 (row p) q))
  (hWf : ∀ (k : Fin 2048) (q : Fin 1024), View.ld x2 rW0 (ix2 k q) = Wf (ix2 k q))
  (hWi : ∀ (k : Fin 2048) (q : Fin 1024), View.ld x2 rW1 (ix2 k q) = Wi (ix2 k q))
  (hWc : ∀ (k : Fin 2048) (q : Fin 1024), View.ld x2 rW2 (ix2 k q) = Wc (ix2 k q))
  (hWo : ∀ (k : Fin 2048) (q : Fin 1024), View.ld x2 rW3 (ix2 k q) = Wo (ix2 k q))
  (hbf : ∀ q : Fin 1024, View.ld x3 rB0 (ix2 (0 : Fin 1) q) = bf (ix1 q))
  (hbi : ∀ q : Fin 1024, View.ld x3 rB1 (ix2 (0 : Fin 1) q) = bi (ix1 q))
  (hbc : ∀ q : Fin 1024, View.ld x3 rB2 (ix2 (0 : Fin 1) q) = bc (ix1 q))
  (hbo : ∀ q : Fin 1024, View.ld x3 rB3 (ix2 (0 : Fin 1) q) = bo (ix1 q))

include h0 h1 hWf hWi hWc hbf hbi hbc in
/-- If the block of [x | h] holds rows `row p` of u, the c_prev block the same rows of c_prev, and gate g's columns
    of the weights and stretch of the bias row hold W_g and b_g, the stored cell-state block holds rows `row p` of
    the new cell state. -/
theorem cellPay_apply (p : Fin 256) (q : Fin 1024) :
    cellPay x0 x1 x2 x3 (ix2 p q) = Cert.Lstm.cell u Wf bf Wi bi Wc bc cprev (row p) q := by
  unfold cellPay k0_pay1
  show k0_pay4 (F := Ideal) _ _ _ (ix2 p q) * View.ld x1 rTile (ix2 p q) + k0_pay5 (F := Ideal) _ _ _ (ix2 p q) * k0_pay6 (F := Ideal) _ _ _ (ix2 p q) = _
  rw [gate_f_apply, gate_i_apply, gate_c_apply]
  simp only [h0, h1, hWf, hWi, hWc, hbf, hbi, hbc]
  rfl

include h0 h1 hWf hWi hWc hWo hbf hbi hbc hbo in
/-- Under the same hypotheses, with the output gate's weights and bias, the stored hidden-state block holds rows
    `row p` of the new hidden state. -/
theorem hiddenPay_apply (p : Fin 256) (q : Fin 1024) :
    hiddenPay x0 x1 x2 x3 (ix2 p q) = Cert.Lstm.hidden u Wf bf Wi bi Wc bc Wo bo cprev (row p) q := by
  have hc := cellPay_apply u Wf bf Wi bi Wc bc cprev row x0 x1 x2 x3 h0 h1 hWf hWi hWc hbf hbi hbc p q
  unfold cellPay at hc
  unfold hiddenPay k0_pay2
  show k0_pay7 (F := Ideal) _ _ _ (ix2 p q) * Ideal.tanh (k0_pay1 (F := Ideal) _ _ _ _ (ix2 p q)) = _
  rw [gate_o_apply, hc]
  simp only [h0, hWo, hbo]
  rfl

end point

end Cert.KernelIdeal.Pay

end
-- ==== Proof.KernelValue.lean ====
/-
  What the kernel's two result arrays hold after the run, as functions of the argument arrays.

  Before the kernel starts, @main has built three arrays: u = [x | h] (rows of x and h_prev side by side), the
  2048×4096 matrix [W_f | W_i | W_c | W_o], and the 1×4096 row (b_f, b_i, b_c, b_o); a rounding to bf16 is the
  identity on the extended reals, so these ARE the concatenations of the arguments. At grid point t the kernel's
  block of u is rows 256·t … 256·t+255 of u, its block of c_prev the same rows of c_prev, and the weight matrix and
  bias row are resident whole; gate g reads columns 1024·g … 1024·g+1023 of both, which are W_g and b_g. So the
  block point t writes back is rows 256·t … of the LSTM step's new hidden state (first result) and new cell state
  (second result). The sixteen blocks tile the 4096 rows: each result array ends holding the whole new state.
-/
import proofs.«103507_j35450660061928_2_alg».proof.Proof.FrameKernelIdeal
import proofs.«103507_j35450660061928_2_alg».proof.Proof.KernelPay
import proofs.«103507_j35450660061928_2_alg».proof.Proof.Spec
import Idealize.ShloMosaic.Lib.StableHlo.Run
import Idealize.ShloMosaic.Lib.Pipeline.Value
import Idealize.ShloMosaic.Lib.ValueLayout
import Idealize.ShloMosaic.PureOps.Ideal.Laws

noncomputable section

namespace Cert.KernelIdeal.Cell

open Cert.KernelIdeal Cert.KernelIdeal.Gen Cert.KernelIdeal.Frame
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The three arrays @main builds before the kernel -/

/-- Each host operation's result at its own buffer, every other buffer as it was; a concatenation of four operands
    with each operand read at its own buffer. -/
macro "host_results" : tactic =>
  `(tactic| (simp (disch := decide) only [after_cons, after_nil, unary_result', binary_result', reshape_result', nary4_result',
      unary_result_ne', binary_result_ne', reshape_result_ne', nary_result_ne']))

/-- u = [x | h]. -/
theorem V_comb (c : Dev nD) : (V m c main_v2 : S4096x2048.Idx → EReal)
    = concatenate S4096x2048 1 [⟨S4096x1024, (m ((c : Thread nD τ).loc main_arg0) : S4096x1024.Idx → EReal)⟩, ⟨S4096x1024, (m ((c : Thread nD τ).loc main_arg1) : S4096x1024.Idx → EReal)⟩] concatenates_S4096x1024_S4096x1024_S4096x2048_d1 := by
  dsimp only [V]
  simp only [hostOps0, List.flatten_cons, List.flatten_nil, List.append_nil, List.cons_append, List.nil_append]
  host_results
  rfl

/-- The weight matrix [W_f | W_i | W_c | W_o]. -/
theorem V_wcat (c : Dev nD) : (V m c main_v7 : S2048x4096.Idx → EReal)
    = concatenate S2048x4096 1 [⟨S2048x1024, (m ((c : Thread nD τ).loc main_arg3) : S2048x1024.Idx → EReal)⟩, ⟨S2048x1024, (m ((c : Thread nD τ).loc main_arg5) : S2048x1024.Idx → EReal)⟩, ⟨S2048x1024, (m ((c : Thread nD τ).loc main_arg7) : S2048x1024.Idx → EReal)⟩, ⟨S2048x1024, (m ((c : Thread nD τ).loc main_arg9) : S2048x1024.Idx → EReal)⟩] concatenates_S2048x1024_S2048x1024_S2048x1024_S2048x1024_S2048x4096_d1 := by
  dsimp only [V]
  simp only [hostOps0, List.flatten_cons, List.flatten_nil, List.append_nil, List.cons_append, List.nil_append]
  host_results
  rfl

/-- The bias row (b_f, b_i, b_c, b_o), recast from 4096 entries to one row of 4096. -/
theorem V_brow (c : Dev nD) : (V m c main_v9 : S1x4096.Idx → EReal)
    = shapeCast S1x4096 (concatenate S4096 0 [⟨S1024, (m ((c : Thread nD τ).loc main_arg4) : S1024.Idx → EReal)⟩, ⟨S1024, (m ((c : Thread nD τ).loc main_arg6) : S1024.Idx → EReal)⟩, ⟨S1024, (m ((c : Thread nD τ).loc main_arg8) : S1024.Idx → EReal)⟩, ⟨S1024, (m ((c : Thread nD τ).loc main_arg10) : S1024.Idx → EReal)⟩] concatenates_S1024_S1024_S1024_S1024_S4096_d0) shapeCasts_S4096_S1x4096 := by
  dsimp only [V]
  simp only [hostOps0, List.flatten_cons, List.flatten_nil, List.append_nil, List.cons_append, List.nil_append]
  host_results
  rfl

/-! ## The blocks at a grid point -/

/-- The block indices over the grid: the [x | h], c_prev and the two result windows move down one block of rows per
    point; the weight matrix and the bias row stay at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row p of point t's block is row 256·t + p of the array. -/
def row (t : Fin cfg0.N) (p : Fin 256) : Fin 4096 :=
  ⟨256 * t.val + p.val, by have := t.isLt; have hN : cfg0.N = 16 := N_0; have := p.isLt; omega⟩

/-- Point t's block of [x | h] is rows 256·t … of u. -/
theorem comb_block (c : Dev nD) (t : Fin cfg0.N) (p : Fin 256) (k : Fin 2048) :
    View.ld (iblk m c 0 t) rComb (ix2 p k) = (V m c main_v2 : S4096x2048.Idx → EReal) (ix2 (row t p) k) := by
  obtain ⟨e00, e01, e10, e11, e20, e21, e30, e31, e40, e41, e50, e51⟩ := idx_facts t
  show (iblk m c 0 t) (rComb.idx (ix2 p k)) = _
  unfold iblk
  rw [View.read_apply]
  show V m c main_v2 (((cfg0.win 0).blk t).view.emb (rComb.idx (ix2 p k))) = V m c main_v2 (ix2 (row t p) k)
  refine congrArg (V m c main_v2) ?_
  funext a; apply Fin.ext
  match a with
  | ⟨0, _⟩ => show win0_0.index t (0 : Fin 2) * 256 + 1 * (0 + 1 * p.val) = 256 * t.val + p.val; rw [e00]; omega
  | ⟨1, _⟩ => show win0_0.index t (1 : Fin 2) * 2048 + 1 * (0 + 1 * k.val) = k.val; rw [e01]; omega

/-- Point t's block of c_prev is the same rows of c_prev, which no host operation touched. -/
theorem cprev_block (c : Dev nD) (t : Fin cfg0.N) (p : Fin 256) (q : Fin 1024) :
    View.ld (iblk m c 1 t) rTile (ix2 p q) = (m ((c : Thread nD τ).loc main_arg2) : S4096x1024.Idx → EReal) (ix2 (row t p) q) := by
  obtain ⟨e00, e01, e10, e11, e20, e21, e30, e31, e40, e41, e50, e51⟩ := idx_facts t
  show (iblk m c 1 t) (rTile.idx (ix2 p q)) = _
  unfold iblk
  rw [View.read_apply]
  show V m c main_arg2 (((cfg0.win 1).blk t).view.emb (rTile.idx (ix2 p q))) = _
  rw [V_main_arg2]
  refine congrArg (m ((c : Thread nD τ).loc main_arg2)) ?_
  funext a; apply Fin.ext
  match a with
  | ⟨0, _⟩ => show win0_1.index t (0 : Fin 2) * 256 + 1 * (0 + 1 * p.val) = 256 * t.val + p.val; rw [e10]; omega
  | ⟨1, _⟩ => show win0_1.index t (1 : Fin 2) * 1024 + 1 * (0 + 1 * q.val) = q.val; rw [e11]; omega

/-- Gate f's columns of the resident weight block are W_f: piece 0 of the column-wise concatenation. -/
theorem wf_block (c : Dev nD) (t : Fin cfg0.N) (k : Fin 2048) (q : Fin 1024) :
    View.ld (iblk m c 2 t) rW0 (ix2 k q) = (m ((c : Thread nD τ).loc main_arg3) : S2048x1024.Idx → EReal) (ix2 k q) := by
  obtain ⟨e00, e01, e10, e11, e20, e21, e30, e31, e40, e41, e50, e51⟩ := idx_facts t
  show (iblk m c 2 t) (rW0.idx (ix2 k q)) = _
  unfold iblk
  rw [View.read_apply]
  show V m c main_v7 (((cfg0.win 2).blk t).view.emb (rW0.idx (ix2 k q))) = _
  rw [V_wcat]
  refine concatenate_apply_piece (t := S2048x4096) (1 : Fin 2) _ _ _ 0 (by show (0 : ℕ) < 4; omega) S2048x1024 _ rfl rfl 0 rfl (ix2 k q) (fun b hb => ?_) ?_
  · match b with
    | ⟨0, _⟩ => show k.val = win0_2.index t (0 : Fin 2) * 2048 + 1 * (0 + 1 * k.val); rw [e20]; omega
    | ⟨1, _⟩ => exact absurd rfl hb
  · show 0 + q.val = win0_2.index t (1 : Fin 2) * 4096 + 1 * (0 + 1 * q.val); rw [e21]; omega

/-- Gate i's columns of the resident weight block are W_i: piece 1 of the column-wise concatenation. -/
theorem wi_block (c : Dev nD) (t : Fin cfg0.N) (k : Fin 2048) (q : Fin 1024) :
    View.ld (iblk m c 2 t) rW1 (ix2 k q) = (m ((c : Thread nD τ).loc main_arg5) : S2048x1024.Idx → EReal) (ix2 k q) := by
  obtain ⟨e00, e01, e10, e11, e20, e21, e30, e31, e40, e41, e50, e51⟩ := idx_facts t
  show (iblk m c 2 t) (rW1.idx (ix2 k q)) = _
  unfold iblk
  rw [View.read_apply]
  show V m c main_v7 (((cfg0.win 2).blk t).view.emb (rW1.idx (ix2 k q))) = _
  rw [V_wcat]
  refine concatenate_apply_piece (t := S2048x4096) (1 : Fin 2) _ _ _ 1 (by show (1 : ℕ) < 4; omega) S2048x1024 _ rfl rfl 1024 rfl (ix2 k q) (fun b hb => ?_) ?_
  · match b with
    | ⟨0, _⟩ => show k.val = win0_2.index t (0 : Fin 2) * 2048 + 1 * (0 + 1 * k.val); rw [e20]; omega
    | ⟨1, _⟩ => exact absurd rfl hb
  · show 1024 + q.val = win0_2.index t (1 : Fin 2) * 4096 + 1 * (1024 + 1 * q.val); rw [e21]; omega

/-- Gate c's columns of the resident weight block are W_c: piece 2 of the column-wise concatenation. -/
theorem wc_block (c : Dev nD) (t : Fin cfg0.N) (k : Fin 2048) (q : Fin 1024) :
    View.ld (iblk m c 2 t) rW2 (ix2 k q) = (m ((c : Thread nD τ).loc main_arg7) : S2048x1024.Idx → EReal) (ix2 k q) := by
  obtain ⟨e00, e01, e10, e11, e20, e21, e30, e31, e40, e41, e50, e51⟩ := idx_facts t
  show (iblk m c 2 t) (rW2.idx (ix2 k q)) = _
  unfold iblk
  rw [View.read_apply]
  show V m c main_v7 (((cfg0.win 2).blk t).view.emb (rW2.idx (ix2 k q))) = _
  rw [V_wcat]
  refine concatenate_apply_piece (t := S2048x4096) (1 : Fin 2) _ _ _ 2 (by show (2 : ℕ) < 4; omega) S2048x1024 _ rfl rfl 2048 rfl (ix2 k q) (fun b hb => ?_) ?_
  · match b with
    | ⟨0, _⟩ => show k.val = win0_2.index t (0 : Fin 2) * 2048 + 1 * (0 + 1 * k.val); rw [e20]; omega
    | ⟨1, _⟩ => exact absurd rfl hb
  · show 2048 + q.val = win0_2.index t (1 : Fin 2) * 4096 + 1 * (2048 + 1 * q.val); rw [e21]; omega

/-- Gate o's columns of the resident weight block are W_o: piece 3 of the column-wise concatenation. -/
theorem wo_block (c : Dev nD) (t : Fin cfg0.N) (k : Fin 2048) (q : Fin 1024) :
    View.ld (iblk m c 2 t) rW3 (ix2 k q) = (m ((c : Thread nD τ).loc main_arg9) : S2048x1024.Idx → EReal) (ix2 k q) := by
  obtain ⟨e00, e01, e10, e11, e20, e21, e30, e31, e40, e41, e50, e51⟩ := idx_facts t
  show (iblk m c 2 t) (rW3.idx (ix2 k q)) = _
  unfold iblk
  rw [View.read_apply]
  show V m c main_v7 (((cfg0.win 2).blk t).view.emb (rW3.idx (ix2 k q))) = _
  rw [V_wcat]
  refine concatenate_apply_piece (t := S2048x4096) (1 : Fin 2) _ _ _ 3 (by show (3 : ℕ) < 4; omega) S2048x1024 _ rfl rfl 3072 rfl (ix2 k q) (fun b hb => ?_) ?_
  · match b with
    | ⟨0, _⟩ => show k.val = win0_2.index t (0 : Fin 2) * 2048 + 1 * (0 + 1 * k.val); rw [e20]; omega
    | ⟨1, _⟩ => exact absurd rfl hb
  · show 3072 + q.val = win0_2.index t (1 : Fin 2) * 4096 + 1 * (3072 + 1 * q.val); rw [e21]; omega

/-- Gate f's stretch of the resident bias row is b_f: the row is the four biases end to end, recast as one row. -/
theorem bf_block (c : Dev nD) (t : Fin cfg0.N) (q : Fin 1024) :
    View.ld (iblk m c 3 t) rB0 (ix2 (0 : Fin 1) q) = (m ((c : Thread nD τ).loc main_arg4) : S1024.Idx → EReal) (ix1 q) := by
  obtain ⟨e00, e01, e10, e11, e20, e21, e30, e31, e40, e41, e50, e51⟩ := idx_facts t
  show (iblk m c 3 t) (rB0.idx (ix2 (0 : Fin 1) q)) = _
  unfold iblk
  rw [View.read_apply]
  show V m c main_v9 (((cfg0.win 3).blk t).view.emb (rB0.idx (ix2 (0 : Fin 1) q))) = _
  rw [V_brow]
  have hq : 0 + q.val < 4096 := by have := q.isLt; omega
  have hj : ((cfg0.win 3).blk t).view.emb (rB0.idx (ix2 (0 : Fin 1) q)) = ix2 (0 : Fin 1) (⟨0 + q.val, hq⟩ : Fin 4096) := by
    funext a; apply Fin.ext
    match a with
    | ⟨0, _⟩ => show win0_3.index t (0 : Fin 2) * 1 + 1 * (0 + 1 * 0) = 0; rw [e30]
    | ⟨1, _⟩ => show win0_3.index t (1 : Fin 2) * 4096 + 1 * (0 + 1 * q.val) = 0 + q.val; rw [e31]; omega
  rw [hj]
  refine (shapeCast_a_1a_apply (a := 4096) _ shapeCasts_S4096_S1x4096 (0 : Fin 1) ⟨0 + q.val, hq⟩).trans ?_
  refine concatenate_apply_piece (t := S4096) (0 : Fin 1) _ _ _ 0 (by show (0 : ℕ) < 4; omega) S1024 _ rfl rfl 0 rfl (ix1 q) (fun b hb => ?_) ?_
  · match b with
    | ⟨0, _⟩ => exact absurd rfl hb
  · rfl

/-- Gate i's stretch of the resident bias row is b_i: the row is the four biases end to end, recast as one row. -/
theorem bi_block (c : Dev nD) (t : Fin cfg0.N) (q : Fin 1024) :
    View.ld (iblk m c 3 t) rB1 (ix2 (0 : Fin 1) q) = (m ((c : Thread nD τ).loc main_arg6) : S1024.Idx → EReal) (ix1 q) := by
  obtain ⟨e00, e01, e10, e11, e20, e21, e30, e31, e40, e41, e50, e51⟩ := idx_facts t
  show (iblk m c 3 t) (rB1.idx (ix2 (0 : Fin 1) q)) = _
  unfold iblk
  rw [View.read_apply]
  show V m c main_v9 (((cfg0.win 3).blk t).view.emb (rB1.idx (ix2 (0 : Fin 1) q))) = _
  rw [V_brow]
  have hq : 1024 + q.val < 4096 := by have := q.isLt; omega
  have hj : ((cfg0.win 3).blk t).view.emb (rB1.idx (ix2 (0 : Fin 1) q)) = ix2 (0 : Fin 1) (⟨1024 + q.val, hq⟩ : Fin 4096) := by
    funext a; apply Fin.ext
    match a with
    | ⟨0, _⟩ => show win0_3.index t (0 : Fin 2) * 1 + 1 * (0 + 1 * 0) = 0; rw [e30]
    | ⟨1, _⟩ => show win0_3.index t (1 : Fin 2) * 4096 + 1 * (1024 + 1 * q.val) = 1024 + q.val; rw [e31]; omega
  rw [hj]
  refine (shapeCast_a_1a_apply (a := 4096) _ shapeCasts_S4096_S1x4096 (0 : Fin 1) ⟨1024 + q.val, hq⟩).trans ?_
  refine concatenate_apply_piece (t := S4096) (0 : Fin 1) _ _ _ 1 (by show (1 : ℕ) < 4; omega) S1024 _ rfl rfl 1024 rfl (ix1 q) (fun b hb => ?_) ?_
  · match b with
    | ⟨0, _⟩ => exact absurd rfl hb
  · rfl

/-- Gate c's stretch of the resident bias row is b_c: the row is the four biases end to end, recast as one row. -/
theorem bc_block (c : Dev nD) (t : Fin cfg0.N) (q : Fin 1024) :
    View.ld (iblk m c 3 t) rB2 (ix2 (0 : Fin 1) q) = (m ((c : Thread nD τ).loc main_arg8) : S1024.Idx → EReal) (ix1 q) := by
  obtain ⟨e00, e01, e10, e11, e20, e21, e30, e31, e40, e41, e50, e51⟩ := idx_facts t
  show (iblk m c 3 t) (rB2.idx (ix2 (0 : Fin 1) q)) = _
  unfold iblk
  rw [View.read_apply]
  show V m c main_v9 (((cfg0.win 3).blk t).view.emb (rB2.idx (ix2 (0 : Fin 1) q))) = _
  rw [V_brow]
  have hq : 2048 + q.val < 4096 := by have := q.isLt; omega
  have hj : ((cfg0.win 3).blk t).view.emb (rB2.idx (ix2 (0 : Fin 1) q)) = ix2 (0 : Fin 1) (⟨2048 + q.val, hq⟩ : Fin 4096) := by
    funext a; apply Fin.ext
    match a with
    | ⟨0, _⟩ => show win0_3.index t (0 : Fin 2) * 1 + 1 * (0 + 1 * 0) = 0; rw [e30]
    | ⟨1, _⟩ => show win0_3.index t (1 : Fin 2) * 4096 + 1 * (2048 + 1 * q.val) = 2048 + q.val; rw [e31]; omega
  rw [hj]
  refine (shapeCast_a_1a_apply (a := 4096) _ shapeCasts_S4096_S1x4096 (0 : Fin 1) ⟨2048 + q.val, hq⟩).trans ?_
  refine concatenate_apply_piece (t := S4096) (0 : Fin 1) _ _ _ 2 (by show (2 : ℕ) < 4; omega) S1024 _ rfl rfl 2048 rfl (ix1 q) (fun b hb => ?_) ?_
  · match b with
    | ⟨0, _⟩ => exact absurd rfl hb
  · rfl

/-- Gate o's stretch of the resident bias row is b_o: the row is the four biases end to end, recast as one row. -/
theorem bo_block (c : Dev nD) (t : Fin cfg0.N) (q : Fin 1024) :
    View.ld (iblk m c 3 t) rB3 (ix2 (0 : Fin 1) q) = (m ((c : Thread nD τ).loc main_arg10) : S1024.Idx → EReal) (ix1 q) := by
  obtain ⟨e00, e01, e10, e11, e20, e21, e30, e31, e40, e41, e50, e51⟩ := idx_facts t
  show (iblk m c 3 t) (rB3.idx (ix2 (0 : Fin 1) q)) = _
  unfold iblk
  rw [View.read_apply]
  show V m c main_v9 (((cfg0.win 3).blk t).view.emb (rB3.idx (ix2 (0 : Fin 1) q))) = _
  rw [V_brow]
  have hq : 3072 + q.val < 4096 := by have := q.isLt; omega
  have hj : ((cfg0.win 3).blk t).view.emb (rB3.idx (ix2 (0 : Fin 1) q)) = ix2 (0 : Fin 1) (⟨3072 + q.val, hq⟩ : Fin 4096) := by
    funext a; apply Fin.ext
    match a with
    | ⟨0, _⟩ => show win0_3.index t (0 : Fin 2) * 1 + 1 * (0 + 1 * 0) = 0; rw [e30]
    | ⟨1, _⟩ => show win0_3.index t (1 : Fin 2) * 4096 + 1 * (3072 + 1 * q.val) = 3072 + q.val; rw [e31]; omega
  rw [hj]
  refine (shapeCast_a_1a_apply (a := 4096) _ shapeCasts_S4096_S1x4096 (0 : Fin 1) ⟨3072 + q.val, hq⟩).trans ?_
  refine concatenate_apply_piece (t := S4096) (0 : Fin 1) _ _ _ 3 (by show (3 : ℕ) < 4; omega) S1024 _ rfl rfl 3072 rfl (ix1 q) (fun b hb => ?_) ?_
  · match b with
    | ⟨0, _⟩ => exact absurd rfl hb
  · rfl

/-! ## What each point writes back, and the arrays after the run -/

/-- The new hidden state, of the arrays the kernel finds. -/
def hFin (c : Dev nD) : S4096x1024.Idx → EReal :=
  Cert.Lstm.hiddenArr (V m c main_v2) (m ((c : Thread nD τ).loc main_arg3) : S2048x1024.Idx → EReal) (m ((c : Thread nD τ).loc main_arg4) : S1024.Idx → EReal) (m ((c : Thread nD τ).loc main_arg5) : S2048x1024.Idx → EReal) (m ((c : Thread nD τ).loc main_arg6) : S1024.Idx → EReal) (m ((c : Thread nD τ).loc main_arg7) : S2048x1024.Idx → EReal) (m ((c : Thread nD τ).loc main_arg8) : S1024.Idx → EReal) (m ((c : Thread nD τ).loc main_arg9) : S2048x1024.Idx → EReal) (m ((c : Thread nD τ).loc main_arg10) : S1024.Idx → EReal) (m ((c : Thread nD τ).loc main_arg2) : S4096x1024.Idx → EReal)

/-- The new cell state. -/
def cFin (c : Dev nD) : S4096x1024.Idx → EReal :=
  Cert.Lstm.cellArr (V m c main_v2) (m ((c : Thread nD τ).loc main_arg3) : S2048x1024.Idx → EReal) (m ((c : Thread nD τ).loc main_arg4) : S1024.Idx → EReal) (m ((c : Thread nD τ).loc main_arg5) : S2048x1024.Idx → EReal) (m ((c : Thread nD τ).loc main_arg6) : S1024.Idx → EReal) (m ((c : Thread nD τ).loc main_arg7) : S2048x1024.Idx → EReal) (m ((c : Thread nD τ).loc main_arg8) : S1024.Idx → EReal) (m ((c : Thread nD τ).loc main_arg2) : S4096x1024.Idx → EReal)

/-- Point t writes back block t of the new hidden state. -/
theorem flushed_h (c : Dev nD) (t : Fin cfg0.N) :
    (dats m 0 c).flushed 4 t = ((cfg0.win 4).blk t).view.read (Elt Ideal) (hFin m c) := by
  obtain ⟨e00, e01, e10, e11, e20, e21, e30, e31, e40, e41, e50, e51⟩ := idx_facts t
  show (cfg0.win 4).cut (grid0.coords t) ((dats m 0 c).after 4 t) = _
  rw [after0_4]
  unfold out_h
  rw [View.canon_unit_zero hz]
  funext j
  obtain ⟨p, q, rfl⟩ : ∃ (p : Fin 256) (q : Fin 1024), j = ix2 p q := ⟨j 0, j 1, eq_ix2 j⟩
  show hiddenPay (iblk m c 0 t) (iblk m c 1 t) (iblk m c 2 t) (iblk m c 3 t) (ix2 p q) = hFin m c (((cfg0.win 4).blk t).view.emb (ix2 p q))
  refine (Cert.KernelIdeal.Pay.hiddenPay_apply (V m c main_v2) (m ((c : Thread nD τ).loc main_arg3) : S2048x1024.Idx → EReal) (m ((c : Thread nD τ).loc main_arg4) : S1024.Idx → EReal) (m ((c : Thread nD τ).loc main_arg5) : S2048x1024.Idx → EReal) (m ((c : Thread nD τ).loc main_arg6) : S1024.Idx → EReal) (m ((c : Thread nD τ).loc main_arg7) : S2048x1024.Idx → EReal) (m ((c : Thread nD τ).loc main_arg8) : S1024.Idx → EReal) (m ((c : Thread nD τ).loc main_arg9) : S2048x1024.Idx → EReal) (m ((c : Thread nD τ).loc main_arg10) : S1024.Idx → EReal) (m ((c : Thread nD τ).loc main_arg2) : S4096x1024.Idx → EReal) (row t)
    (iblk m c 0 t) (iblk m c 1 t) (iblk m c 2 t) (iblk m c 3 t) (comb_block m c t) (cprev_block m c t)
    (wf_block m c t) (wi_block m c t) (wc_block m c t) (wo_block m c t) (bf_block m c t) (bi_block m c t) (bc_block m c t) (bo_block m c t) p q).trans ?_
  have e0 : ((cfg0.win 4).blk t).view.emb (ix2 p q) 0 = row t p :=
    Fin.ext (by show win0_4.index t (0 : Fin 2) * 256 + 1 * p.val = 256 * t.val + p.val; rw [e40]; omega)
  have e1 : ((cfg0.win 4).blk t).view.emb (ix2 p q) 1 = q :=
    Fin.ext (by show win0_4.index t (1 : Fin 2) * 1024 + 1 * q.val = q.val; rw [e41]; omega)
  unfold hFin Cert.Lstm.hiddenArr
  rw [e0, e1]

/-- Point t writes back block t of the new cell state. -/
theorem flushed_c (c : Dev nD) (t : Fin cfg0.N) :
    (dats m 0 c).flushed 5 t = ((cfg0.win 5).blk t).view.read (Elt Ideal) (cFin m c) := by
  obtain ⟨e00, e01, e10, e11, e20, e21, e30, e31, e40, e41, e50, e51⟩ := idx_facts t
  show (cfg0.win 5).cut (grid0.coords t) ((dats m 0 c).after 5 t) = _
  rw [after0_5]
  unfold out_c
  rw [View.canon_unit_zero hz]
  funext j
  obtain ⟨p, q, rfl⟩ : ∃ (p : Fin 256) (q : Fin 1024), j = ix2 p q := ⟨j 0, j 1, eq_ix2 j⟩
  show cellPay (iblk m c 0 t) (iblk m c 1 t) (iblk m c 2 t) (iblk m c 3 t) (ix2 p q) = cFin m c (((cfg0.win 5).blk t).view.emb (ix2 p q))
  refine (Cert.KernelIdeal.Pay.cellPay_apply (V m c main_v2) (m ((c : Thread nD τ).loc main_arg3) : S2048x1024.Idx → EReal) (m ((c : Thread nD τ).loc main_arg4) : S1024.Idx → EReal) (m ((c : Thread nD τ).loc main_arg5) : S2048x1024.Idx → EReal) (m ((c : Thread nD τ).loc main_arg6) : S1024.Idx → EReal) (m ((c : Thread nD τ).loc main_arg7) : S2048x1024.Idx → EReal) (m ((c : Thread nD τ).loc main_arg8) : S1024.Idx → EReal) (m ((c : Thread nD τ).loc main_arg2) : S4096x1024.Idx → EReal) (row t)
    (iblk m c 0 t) (iblk m c 1 t) (iblk m c 2 t) (iblk m c 3 t) (comb_block m c t) (cprev_block m c t)
    (wf_block m c t) (wi_block m c t) (wc_block m c t) (bf_block m c t) (bi_block m c t) (bc_block m c t) p q).trans ?_
  have e0 : ((cfg0.win 5).blk t).view.emb (ix2 p q) 0 = row t p :=
    Fin.ext (by show win0_5.index t (0 : Fin 2) * 256 + 1 * p.val = 256 * t.val + p.val; rw [e50]; omega)
  have e1 : ((cfg0.win 5).blk t).view.emb (ix2 p q) 1 = q :=
    Fin.ext (by show win0_5.index t (1 : Fin 2) * 1024 + 1 * q.val = q.val; rw [e51]; omega)
  unfold cFin Cert.Lstm.cellArr
  rw [e0, e1]

/-- An index lies in point t's block of a result array iff each coordinate lies in the block's range. -/
theorem mem_blk_h (t : Fin cfg0.N) (i : S4096x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v10_0).slice (win0_4.rect t)).set ↔ _
  rw [View.set_slice_whole, Rect.mem_set_unit]
  exact Iff.rfl

theorem mem_blk_c (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v10_1).slice (win0_5.rect t)).set ↔ _
  rw [View.set_slice_whole, Rect.mem_set_unit]
  exact Iff.rfl

/-- Row r of a result array is in the block of point r / 256. -/
theorem cover_h (i : S4096x1024.Idx) : ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by omega⟩, rfl⟩
  obtain ⟨e00, e01, e10, e11, e20, e21, e30, e31, e40, e41, e50, e51⟩ := idx_facts t
  refine ⟨t, flush0_4 t, ?_⟩
  rw [mem_blk_h]
  intro a
  match a with
  | ⟨0, _⟩ => show win0_4.index t (0 : Fin 2) * 256 ≤ (i 0).val ∧ (i 0).val < win0_4.index t (0 : Fin 2) * 256 + 256; rw [e40, ht]; omega
  | ⟨1, _⟩ => show win0_4.index t (1 : Fin 2) * 1024 ≤ (i 1).val ∧ (i 1).val < win0_4.index t (1 : Fin 2) * 1024 + 1024; rw [e41]; omega

theorem cover_c (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by omega⟩, rfl⟩
  obtain ⟨e00, e01, e10, e11, e20, e21, e30, e31, e40, e41, e50, e51⟩ := idx_facts t
  refine ⟨t, flush0_5 t, ?_⟩
  rw [mem_blk_c]
  intro a
  match a with
  | ⟨0, _⟩ => show win0_5.index t (0 : Fin 2) * 256 ≤ (i 0).val ∧ (i 0).val < win0_5.index t (0 : Fin 2) * 256 + 256; rw [e50, ht]; omega
  | ⟨1, _⟩ => show win0_5.index t (1 : Fin 2) * 1024 ≤ (i 1).val ∧ (i 1).val < win0_5.index t (1 : Fin 2) * 1024 + 1024; rw [e51]; omega

/-- The first result array ends holding the new hidden state, -/
theorem final_h (c : Dev nD) : (dats m 0 c).arrAt 4 cfg0.N = hFin m c :=
  (dats m 0 c).arrAt_eq_of_cover 4 (hFin m c) (fun t _ => flushed_h m c t) cover_h

/-- and the second the new cell state. -/
theorem final_c (c : Dev nD) : (dats m 0 c).arrAt 5 cfg0.N = cFin m c :=
  (dats m 0 c).arrAt_eq_of_cover 5 (cFin m c) (fun t _ => flushed_c m c t) cover_c

/-! ## The run, read -/

/-- Every weakly fair execution terminates with the two result arrays at the new hidden and cell states of the
    arrays the kernel found, and the eleven arguments unchanged. -/
theorem run : θ_run defs (onTc (τ := τ) (main (F := Ideal))) ⟨m, fun _ => 0, ρ⟩ fun r => ∀ c : Dev nD,
      r.2.mem ((c : Thread nD τ).loc main_v10_0) = hFin m c
      ∧ r.2.mem ((c : Thread nD τ).loc main_v10_1) = cFin m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 4).trans (final_h m c), ((h c).1 5).trans (final_c m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.Cell

end
-- ==== Proof.RefSide.lean ====
/-
  The reference program's two results are the LSTM step of the specification, entry by entry.

  Read at an entry (p, q), each gate of the reference is the sum over k of [x | h](p, k) · W(k, q), plus the bias
  broadcast along the rows, b(q): the very sum the specification writes. The reference spells the sigmoid as
  1 / (1 + e^(−z)) with the literal 1.0, which is the logistic function; the candidate and the new cell state pass
  through tanh. So the new cell state is σ(z_f) · c_prev + σ(z_i) · tanh(z_c) and the new hidden state is
  σ(z_o) · tanh(c), with the same sums and products in the same order on both sides.
-/
import proofs.«103507_j35450660061928_2_alg».proof.Proof.Gen.ReferenceIdeal.Read
import proofs.«103507_j35450660061928_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The reference's contraction reads row p of [x | h] against column q of the weights, and its two broadcasts read
    the bias at q. -/
theorem lidx_f (p : Fin 4096) (q : Fin 1024) (k : Fin 2048) : lidx_main_v1 (ix2 p q) k = ix2 p k :=
  funext fun a => Fin.ext (by match a with | ⟨0, _⟩ => rfl | ⟨1, _⟩ => rfl)
theorem ridx_f (p : Fin 4096) (q : Fin 1024) (k : Fin 2048) : ridx_main_v1 (ix2 p q) k = ix2 k q :=
  funext fun a => Fin.ext (by match a with | ⟨0, _⟩ => rfl | ⟨1, _⟩ => rfl)
theorem bidx_f (p : Fin 4096) (q : Fin 1024) : idx_main_v2 (idx_main_v3 (ix2 p q)) = ix1 q :=
  funext fun a => Fin.ext (by match a with | ⟨0, _⟩ => rfl)
/-- The same three readings for the input gate. -/
theorem lidx_i (p : Fin 4096) (q : Fin 1024) (k : Fin 2048) : lidx_main_v11 (ix2 p q) k = ix2 p k :=
  funext fun a => Fin.ext (by match a with | ⟨0, _⟩ => rfl | ⟨1, _⟩ => rfl)
theorem ridx_i (p : Fin 4096) (q : Fin 1024) (k : Fin 2048) : ridx_main_v11 (ix2 p q) k = ix2 k q :=
  funext fun a => Fin.ext (by match a with | ⟨0, _⟩ => rfl | ⟨1, _⟩ => rfl)
theorem bidx_i (p : Fin 4096) (q : Fin 1024) : idx_main_v12 (idx_main_v13 (ix2 p q)) = ix1 q :=
  funext fun a => Fin.ext (by match a with | ⟨0, _⟩ => rfl)
/-- The same three readings for the candidate. -/
theorem lidx_c (p : Fin 4096) (q : Fin 1024) (k : Fin 2048) : lidx_main_v21 (ix2 p q) k = ix2 p k :=
  funext fun a => Fin.ext (by match a with | ⟨0, _⟩ => rfl | ⟨1, _⟩ => rfl)
theorem ridx_c (p : Fin 4096) (q : Fin 1024) (k : Fin 2048) : ridx_main_v21 (ix2 p q) k = ix2 k q :=
  funext fun a => Fin.ext (by match a with | ⟨0, _⟩ => rfl | ⟨1, _⟩ => rfl)
theorem bidx_c (p : Fin 4096) (q : Fin 1024) : idx_main_v22 (idx_main_v23 (ix2 p q)) = ix1 q :=
  funext fun a => Fin.ext (by match a with | ⟨0, _⟩ => rfl)
/-- The same three readings for the output gate. -/
theorem lidx_o (p : Fin 4096) (q : Fin 1024) (k : Fin 2048) : lidx_main_v26 (ix2 p q) k = ix2 p k :=
  funext fun a => Fin.ext (by match a with | ⟨0, _⟩ => rfl | ⟨1, _⟩ => rfl)
theorem ridx_o (p : Fin 4096) (q : Fin 1024) (k : Fin 2048) : ridx_main_v26 (ix2 p q) k = ix2 k q :=
  funext fun a => Fin.ext (by match a with | ⟨0, _⟩ => rfl | ⟨1, _⟩ => rfl)
theorem bidx_o (p : Fin 4096) (q : Fin 1024) : idx_main_v27 (idx_main_v28 (ix2 p q)) = ix1 q :=
  funext fun a => Fin.ext (by match a with | ⟨0, _⟩ => rfl)

/-- The forget gate's pre-activation. -/
theorem pre_f (x0 x1 : (⟨S4096x1024, .f32⟩ : BufTy).Contents (Elt Ideal)) (x3 : (⟨S2048x1024, .f32⟩ : BufTy).Contents (Elt Ideal)) (x4 : (⟨S1024, .f32⟩ : BufTy).Contents (Elt Ideal)) (p : Fin 4096) (q : Fin 1024) :
    val_main_v4 (F := Ideal) x0 x1 x3 x4 (ix2 p q) = Cert.Lstm.pre (val_main_v0 (F := Ideal) x0 x1) x3 x4 p q := by
  rw [val_main_v4_apply, val_main_v1_apply, val_main_v3_apply, val_main_v2_apply]
  generalize val_main_v0 (F := Ideal) x0 x1 = u
  simp only [lidx_f, ridx_f, bidx_f, Ideal.addf_def]
  rfl

/-- The input gate's pre-activation. -/
theorem pre_i (x0 x1 : (⟨S4096x1024, .f32⟩ : BufTy).Contents (Elt Ideal)) (x5 : (⟨S2048x1024, .f32⟩ : BufTy).Contents (Elt Ideal)) (x6 : (⟨S1024, .f32⟩ : BufTy).Contents (Elt Ideal)) (p : Fin 4096) (q : Fin 1024) :
    val_main_v14 (F := Ideal) x0 x1 x5 x6 (ix2 p q) = Cert.Lstm.pre (val_main_v0 (F := Ideal) x0 x1) x5 x6 p q := by
  rw [val_main_v14_apply, val_main_v11_apply, val_main_v13_apply, val_main_v12_apply]
  generalize val_main_v0 (F := Ideal) x0 x1 = u
  simp only [lidx_i, ridx_i, bidx_i, Ideal.addf_def]
  rfl

/-- The candidate's pre-activation. -/
theorem pre_c (x0 x1 : (⟨S4096x1024, .f32⟩ : BufTy).Contents (Elt Ideal)) (x7 : (⟨S2048x1024, .f32⟩ : BufTy).Contents (Elt Ideal)) (x8 : (⟨S1024, .f32⟩ : BufTy).Contents (Elt Ideal)) (p : Fin 4096) (q : Fin 1024) :
    val_main_v24 (F := Ideal) x0 x1 x7 x8 (ix2 p q) = Cert.Lstm.pre (val_main_v0 (F := Ideal) x0 x1) x7 x8 p q := by
  rw [val_main_v24_apply, val_main_v21_apply, val_main_v23_apply, val_main_v22_apply]
  generalize val_main_v0 (F := Ideal) x0 x1 = u
  simp only [lidx_c, ridx_c, bidx_c, Ideal.addf_def]
  rfl

/-- The output gate's pre-activation. -/
theorem pre_o (x0 x1 : (⟨S4096x1024, .f32⟩ : BufTy).Contents (Elt Ideal)) (x9 : (⟨S2048x1024, .f32⟩ : BufTy).Contents (Elt Ideal)) (x10 : (⟨S1024, .f32⟩ : BufTy).Contents (Elt Ideal)) (p : Fin 4096) (q : Fin 1024) :
    val_main_v29 (F := Ideal) x0 x1 x9 x10 (ix2 p q) = Cert.Lstm.pre (val_main_v0 (F := Ideal) x0 x1) x9 x10 p q := by
  rw [val_main_v29_apply, val_main_v26_apply, val_main_v28_apply, val_main_v27_apply]
  generalize val_main_v0 (F := Ideal) x0 x1 = u
  simp only [lidx_o, ridx_o, bidx_o, Ideal.addf_def]
  rfl

/-- The forget gate: 1 / (1 + e^(−z_f)) with the literal 1.0 is σ(z_f). -/
theorem sig_f (x0 x1 : (⟨S4096x1024, .f32⟩ : BufTy).Contents (Elt Ideal)) (x3 : (⟨S2048x1024, .f32⟩ : BufTy).Contents (Elt Ideal)) (x4 : (⟨S1024, .f32⟩ : BufTy).Contents (Elt Ideal)) (p : Fin 4096) (q : Fin 1024) :
    val_main_v10 (F := Ideal) x0 x1 x3 x4 (ix2 p q) = Ideal.logistic (Cert.Lstm.pre (val_main_v0 (F := Ideal) x0 x1) x3 x4 p q) := by
  rw [val_main_v10_apply, val_main_v9_apply, val_main_cst_0_apply, val_main_v8_apply, val_main_v7_apply, val_main_cst_apply,
    val_main_v6_apply, val_main_v5_apply, pre_f]
  simp only [Ideal.hostDivf_def, Ideal.ofBits_def, Ideal.addf_def, Ideal.hostUnary_exp_def, Ideal.hostNegf_def, Ideal.negf_def,
    Cert.Lstm.logistic_spelt]

/-- The input gate. -/
theorem sig_i (x0 x1 : (⟨S4096x1024, .f32⟩ : BufTy).Contents (Elt Ideal)) (x5 : (⟨S2048x1024, .f32⟩ : BufTy).Contents (Elt Ideal)) (x6 : (⟨S1024, .f32⟩ : BufTy).Contents (Elt Ideal)) (p : Fin 4096) (q : Fin 1024) :
    val_main_v20 (F := Ideal) x0 x1 x5 x6 (ix2 p q) = Ideal.logistic (Cert.Lstm.pre (val_main_v0 (F := Ideal) x0 x1) x5 x6 p q) := by
  rw [val_main_v20_apply, val_main_v19_apply, val_main_cst_2_apply, val_main_v18_apply, val_main_v17_apply, val_main_cst_1_apply,
    val_main_v16_apply, val_main_v15_apply, pre_i]
  simp only [Ideal.hostDivf_def, Ideal.ofBits_def, Ideal.addf_def, Ideal.hostUnary_exp_def, Ideal.hostNegf_def, Ideal.negf_def,
    Cert.Lstm.logistic_spelt]

/-- The output gate. -/
theorem sig_o (x0 x1 : (⟨S4096x1024, .f32⟩ : BufTy).Contents (Elt Ideal)) (x9 : (⟨S2048x1024, .f32⟩ : BufTy).Contents (Elt Ideal)) (x10 : (⟨S1024, .f32⟩ : BufTy).Contents (Elt Ideal)) (p : Fin 4096) (q : Fin 1024) :
    val_main_v35 (F := Ideal) x0 x1 x9 x10 (ix2 p q) = Ideal.logistic (Cert.Lstm.pre (val_main_v0 (F := Ideal) x0 x1) x9 x10 p q) := by
  rw [val_main_v35_apply, val_main_v34_apply, val_main_cst_4_apply, val_main_v33_apply, val_main_v32_apply, val_main_cst_3_apply,
    val_main_v31_apply, val_main_v30_apply, pre_o]
  simp only [Ideal.hostDivf_def, Ideal.ofBits_def, Ideal.addf_def, Ideal.hostUnary_exp_def, Ideal.hostNegf_def, Ideal.negf_def,
    Cert.Lstm.logistic_spelt]

/-- The reference's new cell state is σ(z_f) · c_prev + σ(z_i) · tanh(z_c), entry by entry. -/
theorem ref_cell (x0 x1 x2 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) :
    val_main_v38 (F := Ideal) x0 x1 x2 x3 x4 x5 x6 x7 x8 = Cert.Lstm.cellArr (val_main_v0 (F := Ideal) x0 x1) x3 x4 x5 x6 x7 x8 x2 := by
  funext i
  obtain ⟨p, q, rfl⟩ : ∃ (p : Fin 4096) (q : Fin 1024), i = ix2 p q := ⟨i 0, i 1, eq_ix2 i⟩
  rw [val_main_v38_apply, val_main_v36_apply, val_main_v37_apply, val_main_v25_apply, sig_f, sig_i, pre_c]
  simp only [Ideal.addf_def, Ideal.mulf_def, Ideal.hostUnary_tanh_def]
  rfl

/-- The reference's new hidden state is σ(z_o) · tanh(c), entry by entry. -/
theorem ref_hidden (x0 x1 x2 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) :
    val_main_v40 (F := Ideal) x0 x1 x2 x3 x4 x5 x6 x7 x8 x9 x10 = Cert.Lstm.hiddenArr (val_main_v0 (F := Ideal) x0 x1) x3 x4 x5 x6 x7 x8 x9 x10 x2 := by
  funext i
  obtain ⟨p, q, rfl⟩ : ∃ (p : Fin 4096) (q : Fin 1024), i = ix2 p q := ⟨i 0, i 1, eq_ix2 i⟩
  rw [val_main_v40_apply, val_main_v39_apply, sig_o, ref_cell]
  simp only [Ideal.mulf_def, Ideal.hostUnary_tanh_def]
  rfl

end Cert.ReferenceIdeal.RefValue

end
-- ==== Proof.lean ====
/-
  The certificate of an LSTM cell step computed by a pipelined kernel against its plain reference.

  Frames: each of the three programs runs to the end, faults nowhere and leaves its eleven arguments as they were —
  for the two kernel programs by the pipeline's frame over the body's triple, for the reference by its run.
  The kernel's idealization rewrote nothing, so there is nothing to preserve beyond the text itself.
  Values: at the exact instance both programs end with the new hidden state σ(z_o) · tanh(c) and the new cell state
  c = σ(z_f) · c_prev + σ(z_i) · tanh(z_c), z_g = [x | h] · W_g + b_g, entry by entry — the kernel from sixteen blocks
  of 256 rows over resident concatenated weights and biases, the reference from four whole products; the sigmoid the
  reference expands as 1 / (1 + e^(−z)) is the logistic function the kernel applies, and a rounding to bf16 is the
  identity. The sums and products are formed in the same order on both sides, so no entry needs to be finite.
-/
import proofs.«103507_j35450660061928_2_alg».proof.Defs
import proofs.«103507_j35450660061928_2_alg».proof.Proof.Gen.Kernel
import proofs.«103507_j35450660061928_2_alg».proof.Proof.Gen.KernelIdeal
import proofs.«103507_j35450660061928_2_alg».proof.Proof.Gen.ReferenceIdeal
import proofs.«103507_j35450660061928_2_alg».proof.Proof.Gen.Pre_finite_inputs
import proofs.«103507_j35450660061928_2_alg».proof.Proof.Gen.ReferenceIdeal.Read
import proofs.«103507_j35450660061928_2_alg».proof.Proof.FrameKernel
import proofs.«103507_j35450660061928_2_alg».proof.Proof.FrameKernelIdeal
import proofs.«103507_j35450660061928_2_alg».proof.Proof.KernelValue
import proofs.«103507_j35450660061928_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the arguments both programs end with the same two arrays: the new hidden and cell
    states of the specification, over u = [x | h] of the common arguments. -/
theorem algebraic : Cert.algebraic_KernelIdeal_ReferenceIdeal := by
  intro m ρ m' ρ' _ hagree
  refine ⟨fun c => Cert.KernelIdeal.Cell.hFin m c, fun c => Cert.KernelIdeal.Cell.cFin m c, Cert.KernelIdeal.Cell.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2⟩
  · rw [Cert.ReferenceIdeal.Read.val_main_v40_eq, Cert.ReferenceIdeal.RefValue.ref_hidden, a0, a1, a2, a3, a4, a5, a6, a7, a8, a9, a10]
    dsimp only [Cert.KernelIdeal.Cell.hFin]
    rw [Cert.KernelIdeal.Cell.V_comb]
    rfl
  · rw [Cert.ReferenceIdeal.Read.val_main_v38_eq, Cert.ReferenceIdeal.RefValue.ref_cell, a0, a1, a2, a3, a4, a5, a6, a7, a8]
    dsimp only [Cert.KernelIdeal.Cell.cFin]
    rw [Cert.KernelIdeal.Cell.V_comb]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
